-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x512 : Shape := ⟨2, ![2000, 512]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩

abbrev nBuf : Space → Nat
  | .hbm => 103
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000, .f32⟩
  | .hbm, ⟨84, _⟩ => ⟨S1700000, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x64, .f32⟩
  | .hbm, ⟨94, _⟩ => ⟨S1700000x1, .f32⟩
  | .hbm, ⟨95, _⟩ => ⟨S1700000x64, .f32⟩
  | .hbm, ⟨96, _⟩ => ⟨S1700000x64, .f32⟩
  | .hbm, ⟨97, _⟩ => ⟨S_, .f32⟩
  | .hbm, ⟨98, _⟩ => ⟨S100000x64, .f32⟩
  | .hbm, ⟨99, _⟩ => ⟨S1700000x1, .i32⟩
  | .hbm, ⟨100, _⟩ => ⟨S100000x64, .f32⟩
  | .hbm, ⟨101, _⟩ => ⟨S1x64, .f32⟩
  | .hbm, ⟨102, _⟩ => ⟨S100000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1700000x1_S1700000_n_0_0_1_wf : ScatterDims.WF S100000 S1700000x1 S1700000 [] [0] [0] 1
  dot_S2000x512_S512x128_S2000x128_1_0_0_1_n_n_wf : DotDims.WF S2000x512 S512x128 S2000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x64, .f32⟩
  | .hbm, ⟨112, _⟩ => ⟨S1700000x1, .f32⟩
  | .hbm, ⟨113, _⟩ => ⟨S1700000x64, .f32⟩
  | .hbm, ⟨114, _⟩ => ⟨S1700000x64, .f32⟩
  | .hbm, ⟨115, _⟩ => ⟨S_, .f32⟩
  | .hbm, ⟨116, _⟩ => ⟨S100000x64, .f32⟩
  | .hbm, ⟨117, _⟩ => ⟨S1700000x1, .i32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x128_S100000x128_1_0_0_1_n_n_wf : DotDims.WF S100000x512 S512x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.WholeRun.lean ====
/-
  The kernel program's run as a whole, with its result named.

  The program is four grid regions (two row-blocked matrix products, each followed after a stretch of host
  operations by a row-blocked bias step) between stretches of host operations. Every weakly fair execution
  terminates without a fault; in the final state every buffer the program does not scope holds the contents
  `W8` of the last boundary — the fold of the host stretches and of each region's write-backs from the launch
  memory. Read at the result buffer this names the result; read at an argument buffer it is the launch
  contents, no operation and no region writing an argument.
-/
import proofs.«147030_j55920474193965_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the six argument arrays as launched. -/
theorem run : θ_run defs (onTc (τ := τ) (main (F := F))) ⟨m, fun _ => 0, ρ⟩ (fun r => ∀ c : Dev nD,
      r.2.mem ((c.tc : Thread nD τ).loc main_v76) = W8 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v76 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.WholeRun

end
-- ==== Proof.Spec.lean ====
/-
  The two-layer graph convolution both programs compute, stage by stage, as functions of whole arrays.

  From the edge list `e` (two rows of 1 600 000 node numbers): the SOURCES are its first row followed by every node
  once (the self loops), the TARGETS its second row likewise extended. An index below zero is WRAPPED by adding the
  node count. The DEGREE of a node is the number of edges that target it (a scatter-add of ones), its INVERSE ROOT
  is `1/√degree` where the degree is positive and 0 elsewhere, and the WEIGHT of an edge is the product of the inverse
  roots at its two (wrapped) ends. A layer AGGREGATES node features `h`: it gathers the row of each edge's source,
  scales it by the edge's weight and adds it into the row of the edge's target. The HIDDEN layer is
  `max (aggregate (x · W₁) + b₁) 0`, the OUTPUT `aggregate (hidden · W₂) + b₂`.
  Every function below is generic in the float instance; the shapes and dimension records are the reference
  program's.
-/
import proofs.«147030_j55920474193965_1_alg».proof.Proof.Gen.ReferenceIdeal

noncomputable section

namespace Cert.GraphConv

open Cert.ReferenceIdeal Cert.ReferenceIdeal.Facts₀ Idealize.ShloMosaic

variable {F : FTy → Type} [FloatOps F]

/-- The first row of the edge list, then every node once. -/
def sources (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The second row of the edge list, then every node once. -/
def targets (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node number below zero counts from the end: add the node count. -/
def wrapped (s : (⟨S1700000, .i32⟩ : BufTy).Contents (Elt F)) : (⟨S1700000, .i32⟩ : BufTy).Contents (Elt F) :=
  select (cmpi .slt s (broadcastInDim S1700000 ![] bcast_S_S1700000 (constantI S_ 32 0#32))) (addi s (broadcastInDim S1700000 ![] bcast_S_S1700000 (constantI S_ 32 100000#32))) s

/-- How many edges target each node. -/
def degree (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- `1/√degree` where the degree is positive, 0 elsewhere. -/
def invRoot (d : (⟨S1700000, .i32⟩ : BufTy).Contents (Elt F)) : (⟨S100000, .f32⟩ : BufTy).Contents (Elt F) :=
  select (cmpf (F := F) .ogt (degree d) (broadcastInDim S100000 ![] bcast_S_S100000 (constant S_ .f32 0x00000000#32))) (Host.rsqrt (degree d)) (broadcastInDim S100000 ![] bcast_S_S100000 (id (constant S_ .f32 0x00000000#32)))

/-- An edge's weight: the product of the inverse roots at its source and at its target. -/
def edgeWeight (s d : (⟨S1700000, .i32⟩ : BufTy).Contents (Elt F)) (r : (⟨S100000, .f32⟩ : BufTy).Contents (Elt F)) : (⟨S1700000, .f32⟩ : BufTy).Contents (Elt F) :=
  mulf (Host.gather gather_S100000_S1700000x1_S1700000_n_0_n_n_0_1_1 r (broadcastInDim S1700000x1 ![0] bcast_S1700000_S1700000x1_0 (wrapped s))) (Host.gather gather_S100000_S1700000x1_S1700000_n_0_n_n_0_1_1 r (broadcastInDim S1700000x1 ![0] bcast_S1700000_S1700000x1_0 (wrapped d)))

/-- Gather each edge's source row of `h`, scale it by the edge's weight, add it into the target's row (128 features). -/
def aggregate128 (s d : (⟨S1700000, .i32⟩ : BufTy).Contents (Elt F)) (w : (⟨S1700000, .f32⟩ : BufTy).Contents (Elt F)) (h : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (broadcastInDim S1700000x1 ![0] bcast_S1700000_S1700000x1_0 (wrapped s))) (broadcastInDim S1700000x128 ![0, 1] bcast_S1700000x1_S1700000x128_0_1 (broadcastInDim S1700000x1 ![0] bcast_S1700000_S1700000x1_0 w)))

/-- The same over 64 features. -/
def aggregate64 (s d : (⟨S1700000, .i32⟩ : BufTy).Contents (Elt F)) (w : (⟨S1700000, .f32⟩ : BufTy).Contents (Elt F)) (h : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (broadcastInDim S1700000x1 ![0] bcast_S1700000_S1700000x1_0 (wrapped s))) (broadcastInDim S1700000x64 ![0, 1] bcast_S1700000x1_S1700000x64_0_1 (broadcastInDim S1700000x1 ![0] bcast_S1700000_S1700000x1_0 w)))

/-- Add the bias row to every row and clamp below at zero. -/
def biasRelu (a : (⟨S100000x128, .f32⟩ : BufTy).Contents (Elt F)) (b : (⟨S1x128, .f32⟩ : BufTy).Contents (Elt F)) : (⟨S100000x128, .f32⟩ : BufTy).Contents (Elt F) :=
  maximumf (addf a (broadcastInDim S100000x128 ![0, 1] bcast_S1x128_S100000x128_0_1 b)) (broadcastInDim S100000x128 ![] bcast_S_S100000x128 (constant S_ .f32 0x00000000#32))

/-- Add the bias row to every row. -/
def biasAdd (a : (⟨S100000x64, .f32⟩ : BufTy).Contents (Elt F)) (b : (⟨S1x64, .f32⟩ : BufTy).Contents (Elt F)) : (⟨S100000x64, .f32⟩ : BufTy).Contents (Elt F) :=
  addf a (broadcastInDim S100000x64 ![0, 1] bcast_S1x64_S100000x64_0_1 b)

/-- The hidden layer from the aggregated first product. -/
def hidden (a : (⟨S100000x128, .f32⟩ : BufTy).Contents (Elt F)) (b₁ : (⟨S128, .f32⟩ : BufTy).Contents (Elt F)) : (⟨S100000x128, .f32⟩ : BufTy).Contents (Elt F) :=
  biasRelu a (broadcastInDim S1x128 ![1] bcast_S128_S1x128_1 b₁)

/-- The output from the aggregated second product. -/
def output (a : (⟨S100000x64, .f32⟩ : BufTy).Contents (Elt F)) (b₂ : (⟨S64, .f32⟩ : BufTy).Contents (Elt F)) : (⟨S100000x64, .f32⟩ : BufTy).Contents (Elt F) :=
  biasAdd a (broadcastInDim S1x64 ![1] bcast_S64_S1x64_1 b₂)

/-- The whole network as one function of the six argument arrays. -/
def network (x : (⟨S100000x512, .f32⟩ : BufTy).Contents (Elt F)) (e : (⟨S2x1600000, .i32⟩ : BufTy).Contents (Elt F)) (w₁ : (⟨S512x128, .f32⟩ : BufTy).Contents (Elt F)) (b₁ : (⟨S128, .f32⟩ : BufTy).Contents (Elt F))
    (w₂ : (⟨S128x64, .f32⟩ : BufTy).Contents (Elt F)) (b₂ : (⟨S64, .f32⟩ : BufTy).Contents (Elt F)) : (⟨S100000x64, .f32⟩ : BufTy).Contents (Elt F) :=
  output (aggregate64 (sources e) (targets e) (edgeWeight (sources e) (targets e) (invRoot (targets e)))
      (Host.dotGeneral dot_S100000x128_S128x64_S100000x64_1_0_0_1_n_n none
        (hidden (aggregate128 (sources e) (targets e) (edgeWeight (sources e) (targets e) (invRoot (targets e)))
            (Host.dotGeneral dot_S100000x512_S512x128_S100000x128_1_0_0_1_n_n none x w₁)) b₁) w₂)) b₂

end Cert.GraphConv

end
-- ==== Proof.KernelStretches.lean ====
/-
  What the kernel program's three stretches of host operations compute, run from ANY buffer contents `V`.

  Before the first region: the sources and targets of the edges (the edge list's rows, each followed by every node
  once), and the inverse roots of the target degrees. Between the first product's region and the first bias region:
  the aggregation of the product's rows along the edges, and the bias vector laid out as a one-row matrix. Between the
  second product's region and the last region: the same for the second layer. Each is the stage of Proof/Spec.lean
  of the contents of the buffers the stretch reads; a buffer a stretch does not write holds what it held.
-/
import proofs.«147030_j55920474193965_1_alg».proof.Proof.Gen.KernelIdeal.Frame
import proofs.«147030_j55920474193965_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Stretches

open Cert.KernelIdeal Cert.KernelIdeal.Gen Cert.GraphConv
open Idealize.ShloMosaic Idealize.ShloMosaic.TcCoe Idealize.SL.Sem Idealize.ShloMosaic.StableHlo

/-! ## A vector laid out as a one-row matrix

The kernel program reshapes the bias vector `[n]` to `[1, n]`; the reference broadcasts it along a new leading axis of
extent one. Both read the vector at the column. -/

theorem row_of_vector128 {α : Type} (b : S128.Idx → α) :
    shapeCast S1x128 b Facts₀.shapeCasts_S128_S1x128
      = broadcastInDim Cert.ReferenceIdeal.S1x128 ![1] Cert.ReferenceIdeal.Gen.bcast_S128_S1x128_1 b := by
  funext i
  have h0 : (i 0).val < 1 := (i 0).isLt
  refine (shapeCast_apply b _ i (ValueIdx.ix1 ⟨(i 1).val, (i 1).isLt⟩) ?_).trans
    (broadcastInDim_apply _ _ b i (ValueIdx.ix1 ⟨(i 1).val, (i 1).isLt⟩) (fun a => match a with
      | ⟨0, _⟩ => by show (i 1).val = if (128 : Nat) = 1 then 0 else (i 1).val; rw [if_neg (by decide)])).symm
  rw [Shape.rowMajor_val_one, Shape.rowMajor_val_two]
  show (i 1).val = (i 0).val * 128 + (i 1).val
  omega

theorem row_of_vector64 {α : Type} (b : S64.Idx → α) :
    shapeCast S1x64 b Facts₀.shapeCasts_S64_S1x64
      = broadcastInDim Cert.ReferenceIdeal.S1x64 ![1] Cert.ReferenceIdeal.Gen.bcast_S64_S1x64_1 b := by
  funext i
  have h0 : (i 0).val < 1 := (i 0).isLt
  refine (shapeCast_apply b _ i (ValueIdx.ix1 ⟨(i 1).val, (i 1).isLt⟩) ?_).trans
    (broadcastInDim_apply _ _ b i (ValueIdx.ix1 ⟨(i 1).val, (i 1).isLt⟩) (fun a => match a with
      | ⟨0, _⟩ => by show (i 1).val = if (64 : Nat) = 1 then 0 else (i 1).val; rw [if_neg (by decide)])).symm
  rw [Shape.rowMajor_val_one, Shape.rowMajor_val_two]
  show (i 1).val = (i 0).val * 64 + (i 1).val
  omega

variable {F : FTy → Type} [FloatOps F] (V : Valuation τ sig (Elt F))

/-! ## Before the first region -/

theorem first_sources : after hostOps0_1 (after hostOps0 V) (Proc.devRef .tc main_v3) = sources (V (Proc.devRef .tc main_arg1)) := by
  after_results; rfl
theorem first_targets : after hostOps0_1 (after hostOps0 V) (Proc.devRef .tc main_v6) = targets (V (Proc.devRef .tc main_arg1)) := by
  after_results; rfl
set_option maxHeartbeats 4000000 in
theorem first_invRoot : after hostOps0_1 (after hostOps0 V) (Proc.devRef .tc main_v14) = invRoot (targets (V (Proc.devRef .tc main_arg1))) := by
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rfl
theorem first_keeps_main_arg0 : after hostOps0_1 (after hostOps0 V) (Proc.devRef .tc main_arg0) = V (Proc.devRef .tc main_arg0) := by
  after_results_simp
theorem first_keeps_main_arg2 : after hostOps0_1 (after hostOps0 V) (Proc.devRef .tc main_arg2) = V (Proc.devRef .tc main_arg2) := by
  after_results_simp
theorem first_keeps_main_arg3 : after hostOps0_1 (after hostOps0 V) (Proc.devRef .tc main_arg3) = V (Proc.devRef .tc main_arg3) := by
  after_results_simp
theorem first_keeps_main_arg4 : after hostOps0_1 (after hostOps0 V) (Proc.devRef .tc main_arg4) = V (Proc.devRef .tc main_arg4) := by
  after_results_simp
theorem first_keeps_main_arg5 : after hostOps0_1 (after hostOps0 V) (Proc.devRef .tc main_arg5) = V (Proc.devRef .tc main_arg5) := by
  after_results_simp

/-! ## Between the first product and the first bias -/

theorem second_aggregate : after hostOps1 V (Proc.devRef .tc main_v43)
    = aggregate128 (V (Proc.devRef .tc main_v3)) (V (Proc.devRef .tc main_v6)) (edgeWeight (V (Proc.devRef .tc main_v3)) (V (Proc.devRef .tc main_v6)) (V (Proc.devRef .tc main_v14))) (V (Proc.devRef .tc main_v15)) := by
  after_results_simp <;> rfl
theorem second_bias : after hostOps1 V (Proc.devRef .tc main_v44)
    = broadcastInDim Cert.ReferenceIdeal.S1x128 ![1] Cert.ReferenceIdeal.Gen.bcast_S128_S1x128_1 (V (Proc.devRef .tc main_arg3)) := by
  after_results_simp
  exact row_of_vector128 _
theorem second_keeps_main_v3 : after hostOps1 V (Proc.devRef .tc main_v3) = V (Proc.devRef .tc main_v3) := by
  after_results_simp
theorem second_keeps_main_v6 : after hostOps1 V (Proc.devRef .tc main_v6) = V (Proc.devRef .tc main_v6) := by
  after_results_simp
theorem second_keeps_main_v14 : after hostOps1 V (Proc.devRef .tc main_v14) = V (Proc.devRef .tc main_v14) := by
  after_results_simp
theorem second_keeps_main_arg4 : after hostOps1 V (Proc.devRef .tc main_arg4) = V (Proc.devRef .tc main_arg4) := by
  after_results_simp
theorem second_keeps_main_arg5 : after hostOps1 V (Proc.devRef .tc main_arg5) = V (Proc.devRef .tc main_arg5) := by
  after_results_simp

/-! ## Between the second product and the second bias -/

theorem third_aggregate : after hostOps3 V (Proc.devRef .tc main_v74)
    = aggregate64 (V (Proc.devRef .tc main_v3)) (V (Proc.devRef .tc main_v6)) (edgeWeight (V (Proc.devRef .tc main_v3)) (V (Proc.devRef .tc main_v6)) (V (Proc.devRef .tc main_v14))) (V (Proc.devRef .tc main_v46)) := by
  after_results_simp <;> rfl
theorem third_bias : after hostOps3 V (Proc.devRef .tc main_v75)
    = broadcastInDim Cert.ReferenceIdeal.S1x64 ![1] Cert.ReferenceIdeal.Gen.bcast_S64_S1x64_1 (V (Proc.devRef .tc main_arg5)) := by
  after_results_simp
  exact row_of_vector64 _

end Cert.KernelIdeal.Stretches

end
-- ==== Proof.DenseRows0.lean ====
/- The first dense layer's product (region 0 of the kernel): after the region the result array holds the whole-array
   product of the left array, 100000 × 512, with the right array, 512 × 128, as the two stand when the region is
   entered.

   The region walks the 50 row blocks of 2000 rows. At point `t` the body multiplies rows 2000 t … 2000 t + 1999 of
   the left array by the whole right array and writes rows 2000 t … 2000 t + 1999 of the result. At the ideal values a
   change of number format is the identity and a product accumulated into zero is the plain sum over the contracted
   axis, so an entry of a block product is  ∑ k, x (y, k) · w (k, q);  the whole-array product is the same sum at
   (r, q); and row r of a product depends on row r of the left operand only. Hence the block each point writes back
   is that block of the whole-array product; row r of the result lies in the block of point r / 2000 and every point
   writes back, so the blocks cover the array, and the array ends as the product. -/
import proofs.«147030_j55920474193965_1_alg».proof.Proof.Gen.KernelIdeal.Frame
import proofs.«147030_j55920474193965_1_alg».proof.Proof.Gen.ReferenceIdeal
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.DenseRows0

open Cert.KernelIdeal Cert.KernelIdeal.Gen

/-! ## The block product at an index -/

/-- The left operand's index at output index `i` and contraction index `q`: row `i 0` … -/
theorem lhs_row (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
/-- … column the contraction coordinate. -/
theorem lhs_col (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
/-- The right operand's: row the contraction coordinate … -/
theorem rhs_row (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
/-- … column `i 1`. -/
theorem rhs_col (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- One entry of the block product: at the ideal values the format changes are the identity and the product into
    the zero accumulator is the plain sum over the contracted axis, re-indexed to `Fin 512`. -/
theorem pay_apply (x : Vec Ideal S2000x512 .f32) (w : Vec Ideal S512x128 .f32) (y : Fin 2000) (q : Fin 128) :
    k0_pay1 x w (ix2 y q) = ∑ k : Fin 512, x (ix2 y k) * w (ix2 k q) := by
  unfold k0_pay1
  simp only [matmul]
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 y q) ((contrEquiv1 dot_S2000x512_S512x128_S2000x128_1_0_0_1_n_n 512 rfl rfl).symm k) = ix2 y k := funext fun a => Fin.ext (by
    match a with
    | ⟨0, _⟩ => exact lhs_row _ _
    | ⟨1, _⟩ => exact (lhs_col _ _).trans hk)
  have er : dot_S2000x512_S512x128_S2000x128_1_0_0_1_n_n.rhsIdx (ix2 y q) ((contrEquiv1 dot_S2000x512_S512x128_S2000x128_1_0_0_1_n_n 512 rfl rfl).symm k) = ix2 k q := funext fun a => Fin.ext (by
    match a with
    | ⟨0, _⟩ => exact (rhs_row _ _).trans hk
    | ⟨1, _⟩ => exact rhs_col _ _)
  show x (dot_S2000x512_S512x128_S2000x128_1_0_0_1_n_n.lhsIdx (ix2 y q) ((contrEquiv1 dot_S2000x512_S512x128_S2000x128_1_0_0_1_n_n 512 rfl rfl).symm k)) * w (dot_S2000x512_S512x128_S2000x128_1_0_0_1_n_n.rhsIdx (ix2 y q) ((contrEquiv1 dot_S2000x512_S512x128_S2000x128_1_0_0_1_n_n 512 rfl rfl).symm k)) = _
  rw [el, er]

/-! ## The whole-array product at an index -/

/-- The whole-array product's left operand index at output index `i` and contraction index `q`: row `i 0` … -/
theorem host_lhs_row (i : Cert.ReferenceIdeal.S100000x128.Idx) (q : Cert.ReferenceIdeal.dot_S100000x512_S512x128_S100000x128_1_0_0_1_n_n.contr.Idx) :
    (Cert.ReferenceIdeal.dot_S100000x512_S512x128_S100000x128_1_0_0_1_n_n.lhsIdx i q 0).val = (i 0).val := by
  unfold DotDims.lhsIdx
  rw [dif_neg (show ¬(0 : Fin Cert.ReferenceIdeal.S100000x512.rank) ∈ Cert.ReferenceIdeal.dot_S100000x512_S512x128_S100000x128_1_0_0_1_n_n.lhsBatch by decide), dif_pos (show (0 : Fin Cert.ReferenceIdeal.S100000x512.rank) ∈ Cert.ReferenceIdeal.dot_S100000x512_S512x128_S100000x128_1_0_0_1_n_n.lhsNonContracting by decide)]
  rfl
/-- … column the contraction coordinate. -/
theorem host_lhs_col (i : Cert.ReferenceIdeal.S100000x128.Idx) (q : Cert.ReferenceIdeal.dot_S100000x512_S512x128_S100000x128_1_0_0_1_n_n.contr.Idx) :
    (Cert.ReferenceIdeal.dot_S100000x512_S512x128_S100000x128_1_0_0_1_n_n.lhsIdx i q 1).val = (q ⟨0, by decide⟩).val :=
  Cert.ReferenceIdeal.dot_S100000x512_S512x128_S100000x128_1_0_0_1_n_n.lhsIdx_val_of_single rfl i q
/-- The right operand's: row the contraction coordinate … -/
theorem host_rhs_row (i : Cert.ReferenceIdeal.S100000x128.Idx) (q : Cert.ReferenceIdeal.dot_S100000x512_S512x128_S100000x128_1_0_0_1_n_n.contr.Idx) :
    (Cert.ReferenceIdeal.dot_S100000x512_S512x128_S100000x128_1_0_0_1_n_n.rhsIdx i q 0).val = (q ⟨0, by decide⟩).val :=
  Cert.ReferenceIdeal.dot_S100000x512_S512x128_S100000x128_1_0_0_1_n_n.rhsIdx_val_of_single rfl i q
/-- … column `i 1`. -/
theorem host_rhs_col (i : Cert.ReferenceIdeal.S100000x128.Idx) (q : Cert.ReferenceIdeal.dot_S100000x512_S512x128_S100000x128_1_0_0_1_n_n.contr.Idx) :
    (Cert.ReferenceIdeal.dot_S100000x512_S512x128_S100000x128_1_0_0_1_n_n.rhsIdx i q 1).val = (i 1).val := by
  unfold DotDims.rhsIdx
  rw [dif_neg (show ¬(1 : Fin Cert.ReferenceIdeal.S512x128.rank) ∈ Cert.ReferenceIdeal.dot_S100000x512_S512x128_S100000x128_1_0_0_1_n_n.rhsBatch by decide), dif_pos (show (1 : Fin Cert.ReferenceIdeal.S512x128.rank) ∈ Cert.ReferenceIdeal.dot_S100000x512_S512x128_S100000x128_1_0_0_1_n_n.rhsNonContracting by decide)]
  rfl

/-- One entry of the whole-array product: at the ideal values the host's product is the same plain sum over the
    contracted axis, re-indexed to `Fin 512`. -/
theorem host_apply (A : FVec Ideal Cert.ReferenceIdeal.S100000x512 .f32) (B : FVec Ideal Cert.ReferenceIdeal.S512x128 .f32)
    (r : Fin 100000) (q : Fin 128) :
    Host.dotGeneral Cert.ReferenceIdeal.dot_S100000x512_S512x128_S100000x128_1_0_0_1_n_n none A B (ix2 r q) = ∑ k : Fin 512, A (ix2 r k) * B (ix2 k q) := by
  simp only [Host.dotGeneral]
  rw [Ideal.dotGeneral_apply, ← Equiv.sum_comp (contrEquiv1 Cert.ReferenceIdeal.dot_S100000x512_S512x128_S100000x128_1_0_0_1_n_n 512 rfl rfl).symm]
  refine Finset.sum_congr rfl fun k _ => ?_
  have hk := contrEquiv1_symm_val Cert.ReferenceIdeal.dot_S100000x512_S512x128_S100000x128_1_0_0_1_n_n 512 rfl rfl k
  have el : Cert.ReferenceIdeal.dot_S100000x512_S512x128_S100000x128_1_0_0_1_n_n.lhsIdx (ix2 r q) ((contrEquiv1 Cert.ReferenceIdeal.dot_S100000x512_S512x128_S100000x128_1_0_0_1_n_n 512 rfl rfl).symm k) = ix2 r k := funext fun a => Fin.ext (by
    match a with
    | ⟨0, _⟩ => exact host_lhs_row _ _
    | ⟨1, _⟩ => exact (host_lhs_col _ _).trans hk)
  have er : Cert.ReferenceIdeal.dot_S100000x512_S512x128_S100000x128_1_0_0_1_n_n.rhsIdx (ix2 r q) ((contrEquiv1 Cert.ReferenceIdeal.dot_S100000x512_S512x128_S100000x128_1_0_0_1_n_n 512 rfl rfl).symm k) = ix2 k q := funext fun a => Fin.ext (by
    match a with
    | ⟨0, _⟩ => exact (host_rhs_row _ _).trans hk
    | ⟨1, _⟩ => exact host_rhs_col _ _)
  rw [el, er]

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided once over the grid: at point `t` the left operand's and the result's windows sit
    on row block `t`, and the right operand's window is its whole array. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `y` of the left operand's block at point `t` is row `2000 t + y` of the left array. -/
theorem left_block (c : Dev nD) (t : Fin cfg0.N) (y : S2000x512.Idx) (k : S100000x512.Idx)
    (hk0 : (k 0).val = 2000 * t.val + (y 0).val) (hk1 : (k 1).val = (y 1).val) :
    (iblk0 V c 0 t : Vec Ideal S2000x512 .f32) y = (V c main_arg0 : FVec Ideal Cert.ReferenceIdeal.S100000x512 .f32) k := by
  obtain ⟨e0, e1, -⟩ := index_facts t
  unfold iblk0
  rw [View.read_apply]
  show V c main_arg0 _ = V c main_arg0 _
  congr 1
  funext a
  apply Fin.ext
  match a with
  | ⟨0, _⟩ => show win0_0.index t 0 * 2000 + 1 * (y 0).val = (k 0).val; rw [e0, hk0]; omega
  | ⟨1, _⟩ => show win0_0.index t 1 * 512 + 1 * (y 1).val = (k 1).val; rw [e1, hk1]; omega

/-- The right operand's block at every point is the whole right array. -/
theorem right_block (c : Dev nD) (t : Fin cfg0.N) (y : S512x128.Idx) :
    (iblk0 V c 1 t : Vec Ideal S512x128 .f32) y = (V c main_arg2 : FVec Ideal Cert.ReferenceIdeal.S512x128 .f32) y := by
  obtain ⟨-, -, e2, e3, -⟩ := index_facts t
  unfold iblk0
  rw [View.read_apply]
  show V c main_arg2 _ = V c main_arg2 _
  congr 1
  funext a
  apply Fin.ext
  match a with
  | ⟨0, _⟩ => show win0_1.index t 0 * 512 + 1 * (y 0).val = (y 0).val; rw [e2]; omega
  | ⟨1, _⟩ => show win0_1.index t 1 * 128 + 1 * (y 1).val = (y 1).val; rw [e3]; omega

/-- An entry of the block product of row block `n` of `A` with the whole of `B` is the entry of the whole-array
    product `A B` in row `2000 n + ` its own row: both are the same sum over the contracted axis, since row `r` of a
    product depends on row `r` of the left operand only. -/
theorem entry_eq (A : FVec Ideal Cert.ReferenceIdeal.S100000x512 .f32) (B : FVec Ideal Cert.ReferenceIdeal.S512x128 .f32)
    (x : Vec Ideal S2000x512 .f32) (w : Vec Ideal S512x128 .f32) (n : Nat)
    (hx : ∀ (y : S2000x512.Idx) (k : S100000x512.Idx), (k 0).val = 2000 * n + (y 0).val → (k 1).val = (y 1).val → x y = A k)
    (hw : ∀ y, w y = B y)
    (j : S2000x128.Idx) (i : S100000x128.Idx) (hi0 : (i 0).val = 2000 * n + (j 0).val) (hi1 : (i 1).val = (j 1).val) :
    k0_pay1 x w j = Host.dotGeneral (F := Ideal) Cert.ReferenceIdeal.dot_S100000x512_S512x128_S100000x128_1_0_0_1_n_n none A B i := by
  obtain ⟨y, q, rfl⟩ : ∃ (y : Fin 2000) (q : Fin 128), j = ix2 y q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  rw [pay_apply, host_apply]
  refine Finset.sum_congr rfl fun k _ => ?_
  rw [hx (ix2 y k) (ix2 r k) hi0 rfl, hw]

/-- WHAT POINT `t` WRITES BACK is block `t` of the whole-array product of the two arrays as the region finds them. -/
theorem flushed_eq (c : Dev nD) (t : Fin cfg0.N) :
    (dat0 (F := Ideal) V c).flushed 2 t
      = ((cfg0.win 2).blk t).view.read (Elt Ideal) (Host.dotGeneral (F := Ideal) (φ₁ := .f32) (φ₂ := .f32) Cert.ReferenceIdeal.dot_S100000x512_S512x128_S100000x128_1_0_0_1_n_n none (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x128) zero_offsets]
  obtain ⟨-, -, -, -, e4, e5⟩ := index_facts t
  funext j
  show k0_pay1 (iblk0 V c 0 t) (iblk0 V c 1 t) j
    = (Host.dotGeneral (F := Ideal) (φ₁ := .f32) (φ₂ := .f32) Cert.ReferenceIdeal.dot_S100000x512_S512x128_S100000x128_1_0_0_1_n_n none (V c main_arg0) (V c main_arg2)) (((cfg0.win 2).blk t).view.emb j)
  refine entry_eq _ _ _ _ t.val (fun y k h0 h1 => left_block V c t y k h0 h1) (fun y => right_block V c t y) j _ ?_ ?_
  · show win0_2.index t 0 * 2000 + 1 * (j 0).val = 2000 * t.val + (j 0).val
    rw [e4]; omega
  · show win0_2.index t 1 * 128 + 1 * (j 1).val = (j 1).val
    rw [e5]; omega

/-- An index of the result array is in point `t`'s block iff each coordinate is in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v15).slice (win0_2.rect t)).set ↔ _
  rw [View.set_slice_whole, Rect.mem_set_unit]
  exact Iff.rfl

/-- Row `r` of the result array is in the block of the point `r / 2000`, and every point writes its block back. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by show (i 0).val / 2000 < grid0.N; rw [N_0]; omega⟩, rfl⟩
  obtain ⟨-, -, -, -, e4, e5⟩ := index_facts t
  refine ⟨t, flush0_2 t, ?_⟩
  rw [mem_block]
  intro a
  match a with
  | ⟨0, _⟩ => show win0_2.index t 0 * 2000 ≤ (i 0).val ∧ (i 0).val < win0_2.index t 0 * 2000 + 2000; rw [e4, ht]; omega
  | ⟨1, _⟩ => show win0_2.index t 1 * 128 ≤ (i 1).val ∧ (i 1).val < win0_2.index t 1 * 128 + 128; rw [e5]; omega

/-- THE RESULT ARRAY after the region: the whole-array product of the left and right arrays as the region finds them. -/
theorem array_after (c : Dev nD) :
    (dat0 (F := Ideal) V c).arrAt 2 cfg0.N
      = (Host.dotGeneral (F := Ideal) (φ₁ := .f32) (φ₂ := .f32) Cert.ReferenceIdeal.dot_S100000x512_S512x128_S100000x128_1_0_0_1_n_n none (V c main_arg0) (V c main_arg2)) :=
  (dat0 V c).arrAt_eq_of_cover 2 _ (fun t _ => flushed_eq V c t) covered

end Cert.KernelIdeal.DenseRows0

end
-- ==== Proof.BiasRows1.lean ====
/- The second region of the kernel program adds the bias row to every row of a 100000 × 128 array and
   clamps below at zero, 2000 rows per grid point. This module reads the output array after the region as
   ONE whole-array expression of the two input arrays: row r = 2000·t + y of the result is computed at
   point t from row y of that point's block of the first input (which is row r of the array) and from the
   bias row, whose window is the whole 1 × 128 array at every point. -/
import proofs.«147030_j55920474193965_1_alg».proof.Proof.Gen.KernelIdeal.Frame
import proofs.«147030_j55920474193965_1_alg».proof.Proof.Gen.ReferenceIdeal
import Idealize.ShloMosaic.Lib.Pipeline.Value
import Idealize.ShloMosaic.Lib.ValueIdx

noncomputable section

namespace Cert.KernelIdeal.BiasRows1

open Cert.KernelIdeal Cert.KernelIdeal.Gen Idealize.ShloMosaic Idealize.ShloMosaic.TcCoe Idealize.SL.Sem
open Idealize.ShloMosaic.ValueIdx
open Idealize.ShloMosaic.Pipeline (Dat)

/-- The two spellings of the zero offsets of a rank-2 access. -/
theorem zero_offsets : (![0, 0] : Fin 2 → Nat) = fun _ => 0 := funext fun a => by fin_cases a <;> rfl

/-! ## The body's arithmetic at one entry -/

/-- Entry (y, q) of what the body stores: the block's entry plus the bias row's entry of column q, clamped
    below at zero. The two shape casts are identities, the row broadcast reads row 0, the scalar splat reads
    its word everywhere, and the sum and the maximum are entry by entry. -/
theorem body_entry (a : Vec Ideal S2000x128 .f32) (b : Vec Ideal S1x128 .f32) (y : Fin 2000) (q : Fin 128) :
    k1_pay1 a b (ix2 y q) = max (a (ix2 y q) + b (ix2 0 q)) (Ideal.ofBits .f32 0x00000000#32) := by
  unfold k1_pay1
  rw [shapeCast_self, shapeCast_self, maximumf_apply, addf_apply, broadcast_apply,
    broadcastTo_apply b broadcasts_S1x128_S2000x128 (ix2 y q) (ix2 0 q) (fun d => match d with
      | ⟨0, _⟩ => by show (0 : Nat) = if (1 : Nat) = 1 then 0 else _; rw [if_pos rfl]
      | ⟨1, _⟩ => by show q.val = if (128 : Nat) = 1 then 0 else q.val; rw [if_neg (by decide)])]
  rfl

/-! ## The whole-array expression and its entries -/

/-- The array the region leaves, as the host operations that compute the same thing on whole arrays: the
    bias row broadcast along the rows, added, and the maximum with the zero scalar broadcast to the array. -/
abbrev rowsPlusBiasClamped (A : Vec Ideal S100000x128 .f32) (B : Vec Ideal S1x128 .f32) : Vec Ideal S100000x128 .f32 :=
  maximumf (addf A (broadcastInDim Cert.ReferenceIdeal.S100000x128 ![0, 1] Cert.ReferenceIdeal.Gen.bcast_S1x128_S100000x128_0_1 B))
    (broadcastInDim Cert.ReferenceIdeal.S100000x128 ![] Cert.ReferenceIdeal.Gen.bcast_S_S100000x128 (constant (F := Ideal) Cert.ReferenceIdeal.S_ .f32 0x00000000#32))

/-- Entry (r, q) of the whole-array expression: the same sum and maximum, of row r's entry and the bias
    row's entry of column q. -/
theorem array_entry (A : Vec Ideal S100000x128 .f32) (B : Vec Ideal S1x128 .f32) (r : Fin 100000) (q : Fin 128) :
    rowsPlusBiasClamped A B (ix2 r q) = max (A (ix2 r q) + B (ix2 0 q)) (Ideal.ofBits .f32 0x00000000#32) := by
  show max (A (ix2 r q) + broadcastInDim Cert.ReferenceIdeal.S100000x128 ![0, 1] Cert.ReferenceIdeal.Gen.bcast_S1x128_S100000x128_0_1 B (ix2 r q))
      (broadcastInDim Cert.ReferenceIdeal.S100000x128 ![] Cert.ReferenceIdeal.Gen.bcast_S_S100000x128 (constant (F := Ideal) Cert.ReferenceIdeal.S_ .f32 0x00000000#32) (ix2 r q)) = _
  rw [broadcastInDim_apply _ Cert.ReferenceIdeal.Gen.bcast_S1x128_S100000x128_0_1 B (ix2 r q) (ix2 0 q) (fun d => match d with
      | ⟨0, _⟩ => by show (0 : Nat) = if (1 : Nat) = 1 then 0 else _; rw [if_pos rfl]
      | ⟨1, _⟩ => by show q.val = if (128 : Nat) = 1 then 0 else q.val; rw [if_neg (by decide)]),
    broadcastInDim_apply _ Cert.ReferenceIdeal.Gen.bcast_S_S100000x128 (constant (F := Ideal) Cert.ReferenceIdeal.S_ .f32 0x00000000#32) (ix2 r q) ix0 (fun d => d.elim0)]
  rfl

/-! ## The grid's index maps -/

/-- The block indices of the three windows at a grid point, decided over the fifty points: the first input
    and the output are at row block t, column block 0; the bias row's window is at block (0, 0) throughout. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-! ## What a grid point writes back -/

/-- One entry of a point's result against the whole-array expression: if the entry sits in the array at an
    index of the same column, the first input's block holds the array's entry there, and the bias block is
    the bias array, then the body's entry is the whole-array expression's entry. -/
theorem block_entry (A : Vec Ideal S100000x128 .f32) (B : Vec Ideal S1x128 .f32)
    (a : Vec Ideal S2000x128 .f32) (b : Vec Ideal S1x128 .f32) (j : S2000x128.Idx) (i : S100000x128.Idx)
    (hcol : (i 1).val = (j 1).val) (ha : a j = A i) (hb : b = B) :
    k1_pay1 a b j = rowsPlusBiasClamped A B i := by
  subst hb
  obtain ⟨y, q, rfl⟩ : ∃ (y : Fin 2000) (q : Fin 128), j = ix2 y q := ⟨j 0, j 1, eq_ix2 j⟩
  obtain ⟨r, q', rfl⟩ : ∃ (r : Fin 100000) (q' : Fin 128), i = ix2 r q' := ⟨i 0, i 1, eq_ix2 i⟩
  obtain rfl : q' = q := Fin.ext hcol
  rw [body_entry, array_entry, ha]

/-- Point t writes back block t of the whole-array expression of the two input arrays as the region finds
    them: rows 2000·t … 2000·t + 1999, all 128 columns. -/
theorem flushed_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (rowsPlusBiasClamped (V c main_v43) (V c main_v44)) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S1x128) zero_offsets]
  obtain ⟨e0, e1, e2, e3, e4, e5⟩ := block_indices t
  funext j
  refine block_entry (V c main_v43) (V c main_v44) (iblk1 V c 0 t) (iblk1 V c 1 t) j (((cfg1.win 2).blk t).view.emb j) ?_ ?_ ?_
  · show win1_2.index t (1 : Fin 2) * 128 + 1 * (j 1).val = (j 1).val
    omega
  · show V c main_v43 (((cfg1.win 0).blk t).view.emb j) = V c main_v43 (((cfg1.win 2).blk t).view.emb j)
    refine congrArg (V c main_v43) (funext fun d => Fin.ext ?_)
    match d with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  · funext y
    show V c main_v44 (((cfg1.win 1).blk t).view.emb y) = V c main_v44 y
    refine congrArg (V c main_v44) (funext fun d => Fin.ext ?_)
    match d with
    | ⟨0, _⟩ => show win1_1.index t (0 : Fin 2) * 1 + 1 * (y 0).val = (y 0).val; omega
    | ⟨1, _⟩ => show win1_1.index t (1 : Fin 2) * 128 + 1 * (y 1).val = (y 1).val; omega

/-! ## The blocks cover the array -/

/-- An index of the array is in point t's block iff on each axis it lies in the block's range. -/
theorem mem_block (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- Row r of the array is in the block of point r / 2000, and every point writes its block back. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, lt_of_lt_of_eq (show (i 0).val / 2000 < 50 by omega) N_1.symm⟩, rfl⟩
  obtain ⟨-, -, -, -, e4, e5⟩ := block_indices t
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-! ## The array after the region -/

/-- After the region's fifty points the output array is the whole-array expression of the two input arrays
    as the region found them: every point writes its block of that expression, and the blocks cover the array. -/
theorem array_after (V : (c : Dev nD) → (b : Ref sig .tc) → Buf (Elt Ideal) ((c : Thread nD τ).loc b)) (c : Dev nD) :
    (dat1 (F := Ideal) V c).arrAt 2 cfg1.N
      = maximumf (addf (V c main_v43) (broadcastInDim Cert.ReferenceIdeal.S100000x128 ![0, 1] Cert.ReferenceIdeal.Gen.bcast_S1x128_S100000x128_0_1 (V c main_v44)))
          (broadcastInDim Cert.ReferenceIdeal.S100000x128 ![] Cert.ReferenceIdeal.Gen.bcast_S_S100000x128 (constant (F := Ideal) Cert.ReferenceIdeal.S_ .f32 0x00000000#32)) :=
  (dat1 (F := Ideal) V c).arrAt_eq_of_cover 2 (rowsPlusBiasClamped (V c main_v43) (V c main_v44)) (fun t _ => flushed_eq V c t) covered

end Cert.KernelIdeal.BiasRows1

end
-- ==== Proof.DenseRows2.lean ====
/- The second dense layer's product (region 2 of the kernel): after the region the result array holds the whole-array
   product of the left array, 100000 × 128, with the right array, 128 × 64, as the two stand when the region is
   entered.

   The region walks the 50 row blocks of 2000 rows. At point `t` the body multiplies rows 2000 t … 2000 t + 1999 of
   the left array by the whole right array and writes rows 2000 t … 2000 t + 1999 of the result. At the ideal values a
   reshape to the same shape and a change of number format are the identity and a product accumulated into zero is the
   plain sum over the contracted axis, so an entry of a block product is  ∑ k, x (y, k) · w (k, q);  the whole-array
   product is the same sum at (r, q); and row r of a product depends on row r of the left operand only. Hence the
   block each point writes back is that block of the whole-array product; row r of the result lies in the block of
   point r / 2000 and every point writes back, so the blocks cover the array, and the array ends as the product. -/
import proofs.«147030_j55920474193965_1_alg».proof.Proof.Gen.KernelIdeal.Frame
import proofs.«147030_j55920474193965_1_alg».proof.Proof.Gen.ReferenceIdeal
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.DenseRows2

open Cert.KernelIdeal Cert.KernelIdeal.Gen

/-! ## The block product at an index -/

/-- The left operand's index at output index `i` and contraction index `q`: row `i 0` … -/
theorem lhs_row (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- … column the contraction coordinate. -/
theorem lhs_col (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- The right operand's: row the contraction coordinate … -/
theorem rhs_row (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- … column `i 1`. -/
theorem rhs_col (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- One entry of the block product: at the ideal values the format changes are the identity and the product into
    the zero accumulator is the plain sum over the contracted axis, re-indexed to `Fin 128`. -/
theorem pay_apply (x : Vec Ideal S2000x128 .f32) (w : Vec Ideal S128x64 .f32) (y : Fin 2000) (q : Fin 64) :
    k2_pay1 x w (ix2 y q) = ∑ k : Fin 128, x (ix2 y k) * w (ix2 k q) := by
  unfold k2_pay1
  simp only [matmul, shapeCast_self]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 y q) ((contrEquiv1 dot_S2000x128_S128x64_S2000x64_1_0_0_1_n_n 128 rfl rfl).symm k) = ix2 y k := funext fun a => Fin.ext (by
    match a with
    | ⟨0, _⟩ => exact lhs_row _ _
    | ⟨1, _⟩ => exact (lhs_col _ _).trans hk)
  have er : dot_S2000x128_S128x64_S2000x64_1_0_0_1_n_n.rhsIdx (ix2 y q) ((contrEquiv1 dot_S2000x128_S128x64_S2000x64_1_0_0_1_n_n 128 rfl rfl).symm k) = ix2 k q := funext fun a => Fin.ext (by
    match a with
    | ⟨0, _⟩ => exact (rhs_row _ _).trans hk
    | ⟨1, _⟩ => exact rhs_col _ _)
  show x (dot_S2000x128_S128x64_S2000x64_1_0_0_1_n_n.lhsIdx (ix2 y q) ((contrEquiv1 dot_S2000x128_S128x64_S2000x64_1_0_0_1_n_n 128 rfl rfl).symm k)) * w (dot_S2000x128_S128x64_S2000x64_1_0_0_1_n_n.rhsIdx (ix2 y q) ((contrEquiv1 dot_S2000x128_S128x64_S2000x64_1_0_0_1_n_n 128 rfl rfl).symm k)) = _
  rw [el, er]

/-! ## The whole-array product at an index -/

/-- The whole-array product's left operand index at output index `i` and contraction index `q`: row `i 0` … -/
theorem host_lhs_row (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
/-- … column the contraction coordinate. -/
theorem host_lhs_col (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
/-- The right operand's: row the contraction coordinate … -/
theorem host_rhs_row (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
/-- … column `i 1`. -/
theorem host_rhs_col (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- One entry of the whole-array product: at the ideal values the host's product is the same plain sum over the
    contracted axis, re-indexed to `Fin 128`. -/
theorem host_apply (A : FVec Ideal Cert.ReferenceIdeal.S100000x128 .f32) (B : FVec Ideal Cert.ReferenceIdeal.S128x64 .f32)
    (r : Fin 100000) (q : Fin 64) :
    Host.dotGeneral Cert.ReferenceIdeal.dot_S100000x128_S128x64_S100000x64_1_0_0_1_n_n none A B (ix2 r q) = ∑ k : Fin 128, A (ix2 r k) * B (ix2 k q) := by
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r q) ((contrEquiv1 Cert.ReferenceIdeal.dot_S100000x128_S128x64_S100000x64_1_0_0_1_n_n 128 rfl rfl).symm k) = ix2 r k := funext fun a => Fin.ext (by
    match a with
    | ⟨0, _⟩ => exact host_lhs_row _ _
    | ⟨1, _⟩ => exact (host_lhs_col _ _).trans hk)
  have er : Cert.ReferenceIdeal.dot_S100000x128_S128x64_S100000x64_1_0_0_1_n_n.rhsIdx (ix2 r q) ((contrEquiv1 Cert.ReferenceIdeal.dot_S100000x128_S128x64_S100000x64_1_0_0_1_n_n 128 rfl rfl).symm k) = ix2 k q := funext fun a => Fin.ext (by
    match a with
    | ⟨0, _⟩ => exact (host_rhs_row _ _).trans hk
    | ⟨1, _⟩ => exact host_rhs_col _ _)
  rw [el, er]

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided once over the grid: at point `t` the left operand's and the result's windows sit
    on row block `t`, and the right operand's window is its whole array. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `y` of the left operand's block at point `t` is row `2000 t + y` of the left array. -/
theorem left_block (c : Dev nD) (t : Fin cfg2.N) (y : S2000x128.Idx) (k : S100000x128.Idx)
    (hk0 : (k 0).val = 2000 * t.val + (y 0).val) (hk1 : (k 1).val = (y 1).val) :
    (iblk2 V c 0 t : Vec Ideal S2000x128 .f32) y = (V c main_v45 : FVec Ideal Cert.ReferenceIdeal.S100000x128 .f32) k := by
  obtain ⟨e0, e1, -⟩ := index_facts t
  unfold iblk2
  rw [View.read_apply]
  show V c main_v45 _ = V c main_v45 _
  congr 1
  funext a
  apply Fin.ext
  match a with
  | ⟨0, _⟩ => show win2_0.index t 0 * 2000 + 1 * (y 0).val = (k 0).val; rw [e0, hk0]; omega
  | ⟨1, _⟩ => show win2_0.index t 1 * 128 + 1 * (y 1).val = (k 1).val; rw [e1, hk1]; omega

/-- The right operand's block at every point is the whole right array. -/
theorem right_block (c : Dev nD) (t : Fin cfg2.N) (y : S128x64.Idx) :
    (iblk2 V c 1 t : Vec Ideal S128x64 .f32) y = (V c main_arg4 : FVec Ideal Cert.ReferenceIdeal.S128x64 .f32) y := by
  obtain ⟨-, -, e2, e3, -⟩ := index_facts t
  unfold iblk2
  rw [View.read_apply]
  show V c main_arg4 _ = V c main_arg4 _
  congr 1
  funext a
  apply Fin.ext
  match a with
  | ⟨0, _⟩ => show win2_1.index t 0 * 128 + 1 * (y 0).val = (y 0).val; rw [e2]; omega
  | ⟨1, _⟩ => show win2_1.index t 1 * 64 + 1 * (y 1).val = (y 1).val; rw [e3]; omega

/-- An entry of the block product of row block `n` of `A` with the whole of `B` is the entry of the whole-array
    product `A B` in row `2000 n + ` its own row: both are the same sum over the contracted axis, since row `r` of a
    product depends on row `r` of the left operand only. -/
theorem entry_eq (A : FVec Ideal Cert.ReferenceIdeal.S100000x128 .f32) (B : FVec Ideal Cert.ReferenceIdeal.S128x64 .f32)
    (x : Vec Ideal S2000x128 .f32) (w : Vec Ideal S128x64 .f32) (n : Nat)
    (hx : ∀ (y : S2000x128.Idx) (k : S100000x128.Idx), (k 0).val = 2000 * n + (y 0).val → (k 1).val = (y 1).val → x y = A k)
    (hw : ∀ y, w y = B y)
    (j : S2000x64.Idx) (i : S100000x64.Idx) (hi0 : (i 0).val = 2000 * n + (j 0).val) (hi1 : (i 1).val = (j 1).val) :
    k2_pay1 x w j = Host.dotGeneral (F := Ideal) Cert.ReferenceIdeal.dot_S100000x128_S128x64_S100000x64_1_0_0_1_n_n none A B i := by
  obtain ⟨y, q, rfl⟩ : ∃ (y : Fin 2000) (q : Fin 64), j = ix2 y q := ⟨j 0, j 1, eq_ix2 j⟩
  obtain ⟨r, q', rfl⟩ : ∃ (r : Fin 100000) (q' : Fin 64), i = ix2 r q' := ⟨i 0, i 1, eq_ix2 i⟩
  obtain rfl : q' = q := Fin.ext hi1
  rw [pay_apply, host_apply]
  refine Finset.sum_congr rfl fun k _ => ?_
  rw [hx (ix2 y k) (ix2 r k) hi0 rfl, hw]

/-- WHAT POINT `t` WRITES BACK is block `t` of the whole-array product of the two arrays as the region finds them. -/
theorem flushed_eq (c : Dev nD) (t : Fin cfg2.N) :
    (dat2 (F := Ideal) V c).flushed 2 t
      = ((cfg2.win 2).blk t).view.read (Elt Ideal) (Host.dotGeneral (F := Ideal) (φ₁ := .f32) (φ₂ := .f32) Cert.ReferenceIdeal.dot_S100000x128_S128x64_S100000x64_1_0_0_1_n_n none (V c main_v45) (V c main_arg4)) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x64) zero_offsets]
  obtain ⟨-, -, -, -, e4, e5⟩ := index_facts t
  funext j
  show k2_pay1 (iblk2 V c 0 t) (iblk2 V c 1 t) j
    = (Host.dotGeneral (F := Ideal) (φ₁ := .f32) (φ₂ := .f32) Cert.ReferenceIdeal.dot_S100000x128_S128x64_S100000x64_1_0_0_1_n_n none (V c main_v45) (V c main_arg4)) (((cfg2.win 2).blk t).view.emb j)
  refine entry_eq _ _ _ _ t.val (fun y k h0 h1 => left_block V c t y k h0 h1) (fun y => right_block V c t y) j _ ?_ ?_
  · show win2_2.index t 0 * 2000 + 1 * (j 0).val = 2000 * t.val + (j 0).val
    rw [e4]; omega
  · show win2_2.index t 1 * 64 + 1 * (j 1).val = (j 1).val
    rw [e5]; omega

/-- An index of the result array is in point `t`'s block iff each coordinate is in the block's range on its axis. -/
theorem mem_block (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v46).slice (win2_2.rect t)).set ↔ _
  rw [View.set_slice_whole, Rect.mem_set_unit]
  exact Iff.rfl

/-- Row `r` of the result array is in the block of the point `r / 2000`, and every point writes its block back. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 2000 :=
    ⟨⟨(i 0).val / 2000, by show (i 0).val / 2000 < grid2.N; rw [N_2]; omega⟩, rfl⟩
  obtain ⟨-, -, -, -, e4, e5⟩ := index_facts t
  refine ⟨t, flush2_2 t, ?_⟩
  rw [mem_block]
  intro a
  match a with
  | ⟨0, _⟩ => show win2_2.index t 0 * 2000 ≤ (i 0).val ∧ (i 0).val < win2_2.index t 0 * 2000 + 2000; rw [e4, ht]; omega
  | ⟨1, _⟩ => show win2_2.index t 1 * 64 ≤ (i 1).val ∧ (i 1).val < win2_2.index t 1 * 64 + 64; rw [e5]; omega

/-- THE RESULT ARRAY after the region: the whole-array product of the left and right arrays as the region finds them. -/
theorem array_after (c : Dev nD) :
    (dat2 (F := Ideal) V c).arrAt 2 cfg2.N
      = (Host.dotGeneral (F := Ideal) (φ₁ := .f32) (φ₂ := .f32) Cert.ReferenceIdeal.dot_S100000x128_S128x64_S100000x64_1_0_0_1_n_n none (V c main_v45) (V c main_arg4)) :=
  (dat2 V c).arrAt_eq_of_cover 2 _ (fun t _ => flushed_eq V c t) covered

end Cert.KernelIdeal.DenseRows2

end
-- ==== Proof.BiasRows3.lean ====
/- The fourth region of the kernel program adds the bias row to every row of a 100000 × 64 array, 2000 rows
   per grid point. This module reads the output array after the region as ONE whole-array expression of the
   two input arrays: row r = 2000·t + y of the result is computed at point t from row y of that point's block
   of the first input (which is row r of the array) and from the bias row, whose window is the whole 1 × 64
   array at every point. -/
import proofs.«147030_j55920474193965_1_alg».proof.Proof.Gen.KernelIdeal.Frame
import proofs.«147030_j55920474193965_1_alg».proof.Proof.Gen.ReferenceIdeal
import Idealize.ShloMosaic.Lib.Pipeline.Value
import Idealize.ShloMosaic.Lib.ValueIdx

noncomputable section

namespace Cert.KernelIdeal.BiasRows3

open Cert.KernelIdeal Cert.KernelIdeal.Gen Idealize.ShloMosaic Idealize.ShloMosaic.TcCoe Idealize.SL.Sem
open Idealize.ShloMosaic.ValueIdx
open Idealize.ShloMosaic.Pipeline (Dat)

/-- The two spellings of the zero offsets of a rank-2 access. -/
theorem zero_offsets : (![0, 0] : Fin 2 → Nat) = fun _ => 0 := funext fun a => by fin_cases a <;> rfl

/-! ## The body's arithmetic at one entry -/

/-- Entry (y, q) of what the body stores: the block's entry plus the bias row's entry of column q. The two
    shape casts are identities, the row broadcast reads row 0, and the sum is entry by entry. -/
theorem body_entry (a : Vec Ideal S2000x64 .f32) (b : Vec Ideal S1x64 .f32) (y : Fin 2000) (q : Fin 64) :
    k3_pay1 a b (ix2 y q) = a (ix2 y q) + b (ix2 0 q) := by
  unfold k3_pay1
  rw [shapeCast_self, shapeCast_self, addf_apply,
    broadcastTo_apply b broadcasts_S1x64_S2000x64 (ix2 y q) (ix2 0 q) (fun d => match d with
      | ⟨0, _⟩ => by show (0 : Nat) = if (1 : Nat) = 1 then 0 else _; rw [if_pos rfl]
      | ⟨1, _⟩ => by show q.val = if (64 : Nat) = 1 then 0 else q.val; rw [if_neg (by decide)])]

/-! ## The whole-array expression and its entries -/

/-- The array the region leaves, as the host operations that compute the same thing on whole arrays: the
    bias row broadcast along the rows, added. -/
abbrev rowsPlusBias (A : Vec Ideal S100000x64 .f32) (B : Vec Ideal S1x64 .f32) : Vec Ideal S100000x64 .f32 :=
  addf (F := Ideal) (φ := .f32) A (broadcastInDim Cert.ReferenceIdeal.S100000x64 ![0, 1] Cert.ReferenceIdeal.Gen.bcast_S1x64_S100000x64_0_1 B)

/-- Entry (r, q) of the whole-array expression: the same sum, of row r's entry and the bias row's entry of
    column q. -/
theorem array_entry (A : Vec Ideal S100000x64 .f32) (B : Vec Ideal S1x64 .f32) (r : Fin 100000) (q : Fin 64) :
    rowsPlusBias A B (ix2 r q) = A (ix2 r q) + B (ix2 0 q) := by
  show A (ix2 r q) + broadcastInDim Cert.ReferenceIdeal.S100000x64 ![0, 1] Cert.ReferenceIdeal.Gen.bcast_S1x64_S100000x64_0_1 B (ix2 r q) = _
  rw [broadcastInDim_apply _ Cert.ReferenceIdeal.Gen.bcast_S1x64_S100000x64_0_1 B (ix2 r q) (ix2 0 q) (fun d => match d with
      | ⟨0, _⟩ => by show (0 : Nat) = if (1 : Nat) = 1 then 0 else _; rw [if_pos rfl]
      | ⟨1, _⟩ => by show q.val = if (64 : Nat) = 1 then 0 else q.val; rw [if_neg (by decide)])]

/-! ## The grid's index maps -/

/-- The block indices of the three windows at a grid point, decided over the fifty points: the first input
    and the output are at row block t, column block 0; the bias row's window is at block (0, 0) throughout. -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-! ## What a grid point writes back -/

/-- One entry of a point's result against the whole-array expression: if the entry sits in the array at an
    index of the same column, the first input's block holds the array's entry there, and the bias block is
    the bias array, then the body's entry is the whole-array expression's entry. -/
theorem block_entry (A : Vec Ideal S100000x64 .f32) (B : Vec Ideal S1x64 .f32)
    (a : Vec Ideal S2000x64 .f32) (b : Vec Ideal S1x64 .f32) (j : S2000x64.Idx) (i : S100000x64.Idx)
    (hcol : (i 1).val = (j 1).val) (ha : a j = A i) (hb : b = B) :
    k3_pay1 a b j = rowsPlusBias A B i := by
  subst hb
  obtain ⟨y, q, rfl⟩ : ∃ (y : Fin 2000) (q : Fin 64), j = ix2 y q := ⟨j 0, j 1, eq_ix2 j⟩
  obtain ⟨r, q', rfl⟩ : ∃ (r : Fin 100000) (q' : Fin 64), i = ix2 r q' := ⟨i 0, i 1, eq_ix2 i⟩
  obtain rfl : q' = q := Fin.ext hcol
  rw [body_entry, array_entry, ha]

/-- Point t writes back block t of the whole-array expression of the two input arrays as the region finds
    them: rows 2000·t … 2000·t + 1999, all 64 columns. -/
theorem flushed_eq (V : (c : Dev nD) → (b : Ref sig .tc) → Buf (Elt Ideal) ((c : Thread nD τ).loc b)) (c : Dev nD) (t : Fin cfg3.N) :
    (dat3 (F := Ideal) V c).flushed 2 t
      = ((cfg3.win 2).blk t).view.read (Elt Ideal) (rowsPlusBias (V c main_v74) (V c main_v75)) := by
  show (cfg3.win 2).cut (grid3.coords t) ((dat3 V c).after 2 t) = _
  rw [after3_2]
  unfold out3_2
  rw [View.canon_unit_zero zero_offsets]
  simp only [View.ld_unit_zero (S := S2000x64) zero_offsets, View.ld_unit_zero (S := S1x64) zero_offsets]
  obtain ⟨e0, e1, e2, e3, e4, e5⟩ := block_indices t
  funext j
  refine block_entry (V c main_v74) (V c main_v75) (iblk3 V c 0 t) (iblk3 V c 1 t) j (((cfg3.win 2).blk t).view.emb j) ?_ ?_ ?_
  · show win3_2.index t (1 : Fin 2) * 64 + 1 * (j 1).val = (j 1).val
    omega
  · show V c main_v74 (((cfg3.win 0).blk t).view.emb j) = V c main_v74 (((cfg3.win 2).blk t).view.emb j)
    refine congrArg (V c main_v74) (funext fun d => Fin.ext ?_)
    match d with
    | ⟨0, _⟩ => show win3_0.index t (0 : Fin 2) * 2000 + 1 * (j 0).val = win3_2.index t (0 : Fin 2) * 2000 + 1 * (j 0).val; omega
    | ⟨1, _⟩ => show win3_0.index t (1 : Fin 2) * 64 + 1 * (j 1).val = win3_2.index t (1 : Fin 2) * 64 + 1 * (j 1).val; omega
  · funext y
    show V c main_v75 (((cfg3.win 1).blk t).view.emb y) = V c main_v75 y
    refine congrArg (V c main_v75) (funext fun d => Fin.ext ?_)
    match d with
    | ⟨0, _⟩ => show win3_1.index t (0 : Fin 2) * 1 + 1 * (y 0).val = (y 0).val; omega
    | ⟨1, _⟩ => show win3_1.index t (1 : Fin 2) * 64 + 1 * (y 1).val = (y 1).val; omega

/-! ## The blocks cover the array -/

/-- An index of the array is in point t's block iff on each axis it lies in the block's range. -/
theorem mem_block (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v76).slice (win3_2.rect t)).set ↔ _
  rw [View.set_slice_whole, Rect.mem_set_unit]
  exact Iff.rfl

/-- Row r of the array is in the block of point r / 2000, and every point writes its block back. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 2000 :=
    ⟨⟨(i 0).val / 2000, lt_of_lt_of_eq (show (i 0).val / 2000 < 50 by omega) N_3.symm⟩, rfl⟩
  obtain ⟨-, -, -, -, e4, e5⟩ := block_indices t
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-! ## The array after the region -/

/-- After the region's fifty points the output array is the whole-array expression of the two input arrays
    as the region found them: every point writes its block of that expression, and the blocks cover the array. -/
theorem array_after (V : (c : Dev nD) → (b : Ref sig .tc) → Buf (Elt Ideal) ((c : Thread nD τ).loc b)) (c : Dev nD) :
    (dat3 (F := Ideal) V c).arrAt 2 cfg3.N
      = addf (F := Ideal) (φ := .f32) (V c main_v74) (broadcastInDim Cert.ReferenceIdeal.S100000x64 ![0, 1] Cert.ReferenceIdeal.Gen.bcast_S1x64_S100000x64_0_1 (V c main_v75)) :=
  (dat3 (F := Ideal) V c).arrAt_eq_of_cover 2 (rowsPlusBias (V c main_v74) (V c main_v75)) (fun t _ => flushed_eq V c t) covered

end Cert.KernelIdeal.BiasRows3

end
-- ==== Proof.KernelValue.lean ====
/-
  The kernel program's result as the network of Proof/Spec.lean, at the ideal instance.

  The program's run ends with the result buffer at the last boundary's contents (Proof/WholeRun.lean). Those contents
  are walked back boundary by boundary. A region leaves in its output array the whole-array function of its input
  arrays as it finds them (the four row-blocked regions: Proof/DenseRows0.lean, BiasRows1.lean, DenseRows2.lean,
  BiasRows3.lean) and every other buffer as it was; a stretch of host operations leaves the stage it computes of the
  buffers it reads (Proof/KernelStretches.lean) and every buffer it does not write as it was. The sources, the targets
  and the inverse roots are fixed before the first region and carried unchanged to where each layer's aggregation
  reads them; the weights and biases are the arguments, never written.
-/
import proofs.«147030_j55920474193965_1_alg».proof.Proof.KernelStretches
import proofs.«147030_j55920474193965_1_alg».proof.Proof.DenseRows0
import proofs.«147030_j55920474193965_1_alg».proof.Proof.BiasRows1
import proofs.«147030_j55920474193965_1_alg».proof.Proof.DenseRows2
import proofs.«147030_j55920474193965_1_alg».proof.Proof.BiasRows3

set_option maxRecDepth 16384

noncomputable section

namespace Cert.KernelIdeal.Result

open Cert.KernelIdeal Cert.KernelIdeal.Gen Cert.KernelIdeal.Stretches Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## What is fixed before the first region, carried to each later boundary -/

theorem at2_main_v3 : W2 m ρ c (Proc.devRef .tc main_v3) = sources (m ((c.tc : Thread nD τ).loc main_arg1)) := first_sources (W0 m ρ c)
theorem at2_main_v6 : W2 m ρ c (Proc.devRef .tc main_v6) = targets (m ((c.tc : Thread nD τ).loc main_arg1)) := first_targets (W0 m ρ c)
theorem at2_main_v14 : W2 m ρ c (Proc.devRef .tc main_v14) = invRoot (F := Ideal) (targets (m ((c.tc : Thread nD τ).loc main_arg1))) := first_invRoot (W0 m ρ c)
theorem at2_main_arg0 : W2 m ρ c (Proc.devRef .tc main_arg0) = m ((c.tc : Thread nD τ).loc main_arg0) := first_keeps_main_arg0 (W0 m ρ c)
theorem at2_main_arg2 : W2 m ρ c (Proc.devRef .tc main_arg2) = m ((c.tc : Thread nD τ).loc main_arg2) := first_keeps_main_arg2 (W0 m ρ c)
theorem at2_main_arg3 : W2 m ρ c (Proc.devRef .tc main_arg3) = m ((c.tc : Thread nD τ).loc main_arg3) := first_keeps_main_arg3 (W0 m ρ c)
theorem at2_main_arg4 : W2 m ρ c (Proc.devRef .tc main_arg4) = m ((c.tc : Thread nD τ).loc main_arg4) := first_keeps_main_arg4 (W0 m ρ c)
theorem at2_main_arg5 : W2 m ρ c (Proc.devRef .tc main_arg5) = m ((c.tc : Thread nD τ).loc main_arg5) := first_keeps_main_arg5 (W0 m ρ c)
theorem at3_main_v3 : W3 m ρ c (Proc.devRef .tc main_v3) = sources (m ((c.tc : Thread nD τ).loc main_arg1)) := (W3_of_ne m ρ c main_v3 (by decide)).trans (at2_main_v3 m ρ c)
theorem at3_main_v6 : W3 m ρ c (Proc.devRef .tc main_v6) = targets (m ((c.tc : Thread nD τ).loc main_arg1)) := (W3_of_ne m ρ c main_v6 (by decide)).trans (at2_main_v6 m ρ c)
theorem at3_main_v14 : W3 m ρ c (Proc.devRef .tc main_v14) = invRoot (F := Ideal) (targets (m ((c.tc : Thread nD τ).loc main_arg1))) := (W3_of_ne m ρ c main_v14 (by decide)).trans (at2_main_v14 m ρ c)
theorem at3_main_arg3 : W3 m ρ c (Proc.devRef .tc main_arg3) = m ((c.tc : Thread nD τ).loc main_arg3) := (W3_of_ne m ρ c main_arg3 (by decide)).trans (at2_main_arg3 m ρ c)
theorem at3_main_arg4 : W3 m ρ c (Proc.devRef .tc main_arg4) = m ((c.tc : Thread nD τ).loc main_arg4) := (W3_of_ne m ρ c main_arg4 (by decide)).trans (at2_main_arg4 m ρ c)
theorem at3_main_arg5 : W3 m ρ c (Proc.devRef .tc main_arg5) = m ((c.tc : Thread nD τ).loc main_arg5) := (W3_of_ne m ρ c main_arg5 (by decide)).trans (at2_main_arg5 m ρ c)
theorem at4_main_v3 : W4 m ρ c (Proc.devRef .tc main_v3) = sources (m ((c.tc : Thread nD τ).loc main_arg1)) := (second_keeps_main_v3 (W3 m ρ c)).trans (at3_main_v3 m ρ c)
theorem at4_main_v6 : W4 m ρ c (Proc.devRef .tc main_v6) = targets (m ((c.tc : Thread nD τ).loc main_arg1)) := (second_keeps_main_v6 (W3 m ρ c)).trans (at3_main_v6 m ρ c)
theorem at4_main_v14 : W4 m ρ c (Proc.devRef .tc main_v14) = invRoot (F := Ideal) (targets (m ((c.tc : Thread nD τ).loc main_arg1))) := (second_keeps_main_v14 (W3 m ρ c)).trans (at3_main_v14 m ρ c)
theorem at4_main_arg4 : W4 m ρ c (Proc.devRef .tc main_arg4) = m ((c.tc : Thread nD τ).loc main_arg4) := (second_keeps_main_arg4 (W3 m ρ c)).trans (at3_main_arg4 m ρ c)
theorem at4_main_arg5 : W4 m ρ c (Proc.devRef .tc main_arg5) = m ((c.tc : Thread nD τ).loc main_arg5) := (second_keeps_main_arg5 (W3 m ρ c)).trans (at3_main_arg5 m ρ c)
theorem at5_main_v3 : W5 m ρ c (Proc.devRef .tc main_v3) = sources (m ((c.tc : Thread nD τ).loc main_arg1)) := (W5_of_ne m ρ c main_v3 (by decide)).trans (at4_main_v3 m ρ c)
theorem at5_main_v6 : W5 m ρ c (Proc.devRef .tc main_v6) = targets (m ((c.tc : Thread nD τ).loc main_arg1)) := (W5_of_ne m ρ c main_v6 (by decide)).trans (at4_main_v6 m ρ c)
theorem at5_main_v14 : W5 m ρ c (Proc.devRef .tc main_v14) = invRoot (F := Ideal) (targets (m ((c.tc : Thread nD τ).loc main_arg1))) := (W5_of_ne m ρ c main_v14 (by decide)).trans (at4_main_v14 m ρ c)
theorem at5_main_arg4 : W5 m ρ c (Proc.devRef .tc main_arg4) = m ((c.tc : Thread nD τ).loc main_arg4) := (W5_of_ne m ρ c main_arg4 (by decide)).trans (at4_main_arg4 m ρ c)
theorem at5_main_arg5 : W5 m ρ c (Proc.devRef .tc main_arg5) = m ((c.tc : Thread nD τ).loc main_arg5) := (W5_of_ne m ρ c main_arg5 (by decide)).trans (at4_main_arg5 m ρ c)
theorem at6_main_v3 : W6 m ρ c (Proc.devRef .tc main_v3) = sources (m ((c.tc : Thread nD τ).loc main_arg1)) := (W6_of_ne m ρ c main_v3 (by decide)).trans (at5_main_v3 m ρ c)
theorem at6_main_v6 : W6 m ρ c (Proc.devRef .tc main_v6) = targets (m ((c.tc : Thread nD τ).loc main_arg1)) := (W6_of_ne m ρ c main_v6 (by decide)).trans (at5_main_v6 m ρ c)
theorem at6_main_v14 : W6 m ρ c (Proc.devRef .tc main_v14) = invRoot (F := Ideal) (targets (m ((c.tc : Thread nD τ).loc main_arg1))) := (W6_of_ne m ρ c main_v14 (by decide)).trans (at5_main_v14 m ρ c)
theorem at6_main_arg5 : W6 m ρ c (Proc.devRef .tc main_arg5) = m ((c.tc : Thread nD τ).loc main_arg5) := (W6_of_ne m ρ c main_arg5 (by decide)).trans (at5_main_arg5 m ρ c)

/-! ## The four regions and the two aggregations, in program order -/

/-- After the first region: the product of the node features with the first weight matrix. -/
theorem at3_product : W3 m ρ c (Proc.devRef .tc main_v15) = (Host.dotGeneral (F := Ideal) (φ₁ := .f32) (φ₂ := .f32) Cert.ReferenceIdeal.dot_S100000x512_S512x128_S100000x128_1_0_0_1_n_n none (m ((c.tc : Thread nD τ).loc main_arg0)) (m ((c.tc : Thread nD τ).loc main_arg2))) := by
  refine (W3_arr m ρ c 2).trans ((DenseRows0.array_after (V2 m ρ) c).trans ?_)
  rw [show V2 m ρ c main_arg0 = _ from at2_main_arg0 m ρ c, show V2 m ρ c main_arg2 = _ from at2_main_arg2 m ρ c]

/-- Before the second region: the first aggregation. -/
theorem at4_aggregate : W4 m ρ c (Proc.devRef .tc main_v43) = (aggregate128 (sources (m ((c.tc : Thread nD τ).loc main_arg1))) (targets (m ((c.tc : Thread nD τ).loc main_arg1))) (edgeWeight (sources (m ((c.tc : Thread nD τ).loc main_arg1))) (targets (m ((c.tc : Thread nD τ).loc main_arg1))) (invRoot (F := Ideal) (targets (m ((c.tc : Thread nD τ).loc main_arg1))))) (Host.dotGeneral (F := Ideal) (φ₁ := .f32) (φ₂ := .f32) Cert.ReferenceIdeal.dot_S100000x512_S512x128_S100000x128_1_0_0_1_n_n none (m ((c.tc : Thread nD τ).loc main_arg0)) (m ((c.tc : Thread nD τ).loc main_arg2)))) := by
  refine (second_aggregate (W3 m ρ c)).trans ?_
  rw [at3_main_v3, at3_main_v6, at3_main_v14, at3_product]

theorem at4_bias : W4 m ρ c (Proc.devRef .tc main_v44)
    = broadcastInDim Cert.ReferenceIdeal.S1x128 ![1] Cert.ReferenceIdeal.Gen.bcast_S128_S1x128_1 (m ((c.tc : Thread nD τ).loc main_arg3)) := by
  refine (second_bias (W3 m ρ c)).trans ?_
  rw [at3_main_arg3]

/-- After the second region: the hidden layer. -/
theorem at5_hidden : W5 m ρ c (Proc.devRef .tc main_v45) = (hidden (aggregate128 (sources (m ((c.tc : Thread nD τ).loc main_arg1))) (targets (m ((c.tc : Thread nD τ).loc main_arg1))) (edgeWeight (sources (m ((c.tc : Thread nD τ).loc main_arg1))) (targets (m ((c.tc : Thread nD τ).loc main_arg1))) (invRoot (F := Ideal) (targets (m ((c.tc : Thread nD τ).loc main_arg1))))) (Host.dotGeneral (F := Ideal) (φ₁ := .f32) (φ₂ := .f32) Cert.ReferenceIdeal.dot_S100000x512_S512x128_S100000x128_1_0_0_1_n_n none (m ((c.tc : Thread nD τ).loc main_arg0)) (m ((c.tc : Thread nD τ).loc main_arg2)))) (m ((c.tc : Thread nD τ).loc main_arg3))) := by
  refine (W5_arr m ρ c 2).trans ((BiasRows1.array_after (V4 m ρ) c).trans ?_)
  rw [show V4 m ρ c main_v43 = _ from at4_aggregate m ρ c, show V4 m ρ c main_v44 = _ from at4_bias m ρ c]
  rfl

/-- After the third region: the product of the hidden layer with the second weight matrix. -/
theorem at6_product : W6 m ρ c (Proc.devRef .tc main_v46) = (Host.dotGeneral (F := Ideal) (φ₁ := .f32) (φ₂ := .f32) Cert.ReferenceIdeal.dot_S100000x128_S128x64_S100000x64_1_0_0_1_n_n none (hidden (aggregate128 (sources (m ((c.tc : Thread nD τ).loc main_arg1))) (targets (m ((c.tc : Thread nD τ).loc main_arg1))) (edgeWeight (sources (m ((c.tc : Thread nD τ).loc main_arg1))) (targets (m ((c.tc : Thread nD τ).loc main_arg1))) (invRoot (F := Ideal) (targets (m ((c.tc : Thread nD τ).loc main_arg1))))) (Host.dotGeneral (F := Ideal) (φ₁ := .f32) (φ₂ := .f32) Cert.ReferenceIdeal.dot_S100000x512_S512x128_S100000x128_1_0_0_1_n_n none (m ((c.tc : Thread nD τ).loc main_arg0)) (m ((c.tc : Thread nD τ).loc main_arg2)))) (m ((c.tc : Thread nD τ).loc main_arg3))) (m ((c.tc : Thread nD τ).loc main_arg4))) := by
  refine (W6_arr m ρ c 2).trans ((DenseRows2.array_after (V5 m ρ) c).trans ?_)
  rw [show V5 m ρ c main_v45 = _ from at5_hidden m ρ c, show V5 m ρ c main_arg4 = _ from at5_main_arg4 m ρ c]

/-- Before the last region: the second aggregation. -/
theorem at7_aggregate : W7 m ρ c (Proc.devRef .tc main_v74) = (aggregate64 (sources (m ((c.tc : Thread nD τ).loc main_arg1))) (targets (m ((c.tc : Thread nD τ).loc main_arg1))) (edgeWeight (sources (m ((c.tc : Thread nD τ).loc main_arg1))) (targets (m ((c.tc : Thread nD τ).loc main_arg1))) (invRoot (F := Ideal) (targets (m ((c.tc : Thread nD τ).loc main_arg1))))) (Host.dotGeneral (F := Ideal) (φ₁ := .f32) (φ₂ := .f32) Cert.ReferenceIdeal.dot_S100000x128_S128x64_S100000x64_1_0_0_1_n_n none (hidden (aggregate128 (sources (m ((c.tc : Thread nD τ).loc main_arg1))) (targets (m ((c.tc : Thread nD τ).loc main_arg1))) (edgeWeight (sources (m ((c.tc : Thread nD τ).loc main_arg1))) (targets (m ((c.tc : Thread nD τ).loc main_arg1))) (invRoot (F := Ideal) (targets (m ((c.tc : Thread nD τ).loc main_arg1))))) (Host.dotGeneral (F := Ideal) (φ₁ := .f32) (φ₂ := .f32) Cert.ReferenceIdeal.dot_S100000x512_S512x128_S100000x128_1_0_0_1_n_n none (m ((c.tc : Thread nD τ).loc main_arg0)) (m ((c.tc : Thread nD τ).loc main_arg2)))) (m ((c.tc : Thread nD τ).loc main_arg3))) (m ((c.tc : Thread nD τ).loc main_arg4)))) := by
  refine (third_aggregate (W6 m ρ c)).trans ?_
  rw [at6_main_v3, at6_main_v6, at6_main_v14, at6_product]

theorem at7_bias : W7 m ρ c (Proc.devRef .tc main_v75)
    = broadcastInDim Cert.ReferenceIdeal.S1x64 ![1] Cert.ReferenceIdeal.Gen.bcast_S64_S1x64_1 (m ((c.tc : Thread nD τ).loc main_arg5)) := by
  refine (third_bias (W6 m ρ c)).trans ?_
  rw [at6_main_arg5]

/-- THE RESULT: after the last region the result buffer holds the network of the six arguments. -/
theorem value : W8 m ρ c (Proc.devRef .tc main_v76)
    = network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W8_arr m ρ c 2).trans ((BiasRows3.array_after (V7 m ρ) c).trans ?_)
  rw [show V7 m ρ c main_v74 = _ from at7_aggregate m ρ c, show V7 m ρ c main_v75 = _ from at7_bias m ρ c]
  rfl

end Cert.KernelIdeal.Result

end
-- ==== Proof.ReferenceValue.lean ====
/-
  The reference program's result as the network of Proof/Spec.lean.

  Its 116 host operations are cut into seven stretches: the edge list's rows extended by the self loops; the first
  matrix product with the degrees and their inverse roots; the first aggregation; the first bias and clamp with the
  second product; the degrees and inverse roots a second time; the second aggregation; the second bias. For each
  stretch, run from ANY buffer contents `V`: the buffer it is read for afterwards holds the stage's function of the
  contents of the buffers the stretch reads, and a buffer the stretch does not write holds what it held. Composing the
  seven from the launch contents gives the network of the six arguments.
-/
import proofs.«147030_j55920474193965_1_alg».proof.Proof.ReferenceRun
import proofs.«147030_j55920474193965_1_alg».proof.Proof.Spec
import Idealize.ShloMosaic.Lib.Pipeline.Frame

set_option maxRecDepth 8192

noncomputable section

namespace Cert.ReferenceIdeal.Stretches

open Cert.ReferenceIdeal Cert.ReferenceIdeal.Gen Cert.ReferenceIdeal.Value Cert.GraphConv
open Idealize.ShloMosaic Idealize.ShloMosaic.TcCoe Idealize.SL.Sem Idealize.ShloMosaic.StableHlo

variable {F : FTy → Type} [FloatOps F]

/-- Stretch A: the edge list's two rows, each extended by every node once. -/
def opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- Stretch B: the first product, the degrees and their inverse roots. -/
def opsB : List (HloOp τ sig (Elt F)) :=
  [ binary main_arg0 main_arg2 main_v7 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Stretch C: the first aggregation. -/
def opsC : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v7 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Stretch D: the first bias and clamp, and the second product. -/
def opsD : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- Stretch E: the degrees and inverse roots again. -/
def opsE : List (HloOp τ sig (Elt F)) :=
  [ nullary main_cst_9 (constant S_ .f32 0x3F800000#32),
    unary main_cst_9 main_v49 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select ]

/-- Stretch F: the second aggregation. -/
def opsF : List (HloOp τ sig (Elt F)) :=
  [ nullary main_c_13 (constantI S_ 32 0#32),
    unary main_c_13 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v64 (broadcastInDim S1700000 ![] bcast_S_S1700000 : (⟨S_, .i32⟩ : BufTy).Contents (Elt F) → (⟨S1700000, .i32⟩ : BufTy).Contents (Elt F)),
    binary main_v6 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v66 (broadcastInDim S1700000 ![] bcast_S_S1700000 : (⟨S_, .i32⟩ : BufTy).Contents (Elt F) → (⟨S1700000, .i32⟩ : BufTy).Contents (Elt F)),
    binary main_v6 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v6 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v56 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v63 main_v70 main_v71 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v72 (broadcastInDim S1700000 ![] bcast_S_S1700000 : (⟨S_, .i32⟩ : BufTy).Contents (Elt F) → (⟨S1700000, .i32⟩ : BufTy).Contents (Elt F)),
    binary main_v3 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v74 (broadcastInDim S1700000 ![] bcast_S_S1700000 : (⟨S_, .i32⟩ : BufTy).Contents (Elt F) → (⟨S1700000, .i32⟩ : BufTy).Contents (Elt F)),
    binary main_v3 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v48 main_v77 main_v78 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v71 main_v79 (broadcastInDim S1700000x1 ![0] bcast_S1700000_S1700000x1_0 : (⟨S1700000, .f32⟩ : BufTy).Contents (Elt F) → (⟨S1700000x1, .f32⟩ : BufTy).Contents (Elt F)),
    unary main_v79 main_v80 (broadcastInDim S1700000x64 ![0, 1] bcast_S1700000x1_S1700000x64_0_1 : (⟨S1700000x1, .f32⟩ : BufTy).Contents (Elt F) → (⟨S1700000x64, .f32⟩ : BufTy).Contents (Elt F)),
    binary main_v78 main_v80 main_v81 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v82 (broadcastInDim S100000x64 ![] bcast_S_S100000x64 : (⟨S_, .f32⟩ : BufTy).Contents (Elt F) → (⟨S100000x64, .f32⟩ : BufTy).Contents (Elt F)),
    unary main_v6 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Stretch G: the second bias. -/
def opsG : List (HloOp τ sig (Elt F)) :=
  [ unary main_arg5 main_v85 (broadcastInDim S1x64 ![1] bcast_S64_S1x64_1 : (⟨S64, .f32⟩ : BufTy).Contents (Elt F) → (⟨S1x64, .f32⟩ : BufTy).Contents (Elt F)),
    unary main_v85 main_v86 (broadcastInDim S100000x64 ![0, 1] bcast_S1x64_S100000x64_0_1 : (⟨S1x64, .f32⟩ : BufTy).Contents (Elt F) → (⟨S100000x64, .f32⟩ : BufTy).Contents (Elt F)),
    binary main_v84 main_v86 main_v87 (addf : (⟨S100000x64, .f32⟩ : BufTy).Contents (Elt F) → (⟨S100000x64, .f32⟩ : BufTy).Contents (Elt F) → (⟨S100000x64, .f32⟩ : BufTy).Contents (Elt F)) ]

set_option maxHeartbeats 4000000 in
/-- The program's operations are the seven stretches in order. -/
theorem ops_split : (ops : List (HloOp τ sig (Elt F))) = opsA ++ (opsB ++ (opsC ++ (opsD ++ (opsE ++ (opsF ++ opsG))))) := rfl

variable (V : Valuation τ sig (Elt F))

/-! ## What each stretch does not write -/

theorem A_keeps_main_arg0 : after opsA V (Proc.devRef .tc main_arg0) = V (Proc.devRef .tc main_arg0) := by
  unfold opsA; after_results_simp
theorem A_keeps_main_arg1 : after opsA V (Proc.devRef .tc main_arg1) = V (Proc.devRef .tc main_arg1) := by
  unfold opsA; after_results_simp
theorem A_keeps_main_arg2 : after opsA V (Proc.devRef .tc main_arg2) = V (Proc.devRef .tc main_arg2) := by
  unfold opsA; after_results_simp
theorem A_keeps_main_arg3 : after opsA V (Proc.devRef .tc main_arg3) = V (Proc.devRef .tc main_arg3) := by
  unfold opsA; after_results_simp
theorem A_keeps_main_arg4 : after opsA V (Proc.devRef .tc main_arg4) = V (Proc.devRef .tc main_arg4) := by
  unfold opsA; after_results_simp
theorem A_keeps_main_arg5 : after opsA V (Proc.devRef .tc main_arg5) = V (Proc.devRef .tc main_arg5) := by
  unfold opsA; after_results_simp
theorem B_keeps_main_v3 : after opsB V (Proc.devRef .tc main_v3) = V (Proc.devRef .tc main_v3) := by
  unfold opsB; after_results_simp
theorem B_keeps_main_v6 : after opsB V (Proc.devRef .tc main_v6) = V (Proc.devRef .tc main_v6) := by
  unfold opsB; after_results_simp
theorem B_keeps_main_arg3 : after opsB V (Proc.devRef .tc main_arg3) = V (Proc.devRef .tc main_arg3) := by
  unfold opsB; after_results_simp
theorem B_keeps_main_arg4 : after opsB V (Proc.devRef .tc main_arg4) = V (Proc.devRef .tc main_arg4) := by
  unfold opsB; after_results_simp
theorem B_keeps_main_arg5 : after opsB V (Proc.devRef .tc main_arg5) = V (Proc.devRef .tc main_arg5) := by
  unfold opsB; after_results_simp
theorem C_keeps_main_v3 : after opsC V (Proc.devRef .tc main_v3) = V (Proc.devRef .tc main_v3) := by
  unfold opsC; after_results_simp
theorem C_keeps_main_v6 : after opsC V (Proc.devRef .tc main_v6) = V (Proc.devRef .tc main_v6) := by
  unfold opsC; after_results_simp
theorem C_keeps_main_arg3 : after opsC V (Proc.devRef .tc main_arg3) = V (Proc.devRef .tc main_arg3) := by
  unfold opsC; after_results_simp
theorem C_keeps_main_arg4 : after opsC V (Proc.devRef .tc main_arg4) = V (Proc.devRef .tc main_arg4) := by
  unfold opsC; after_results_simp
theorem C_keeps_main_arg5 : after opsC V (Proc.devRef .tc main_arg5) = V (Proc.devRef .tc main_arg5) := by
  unfold opsC; after_results_simp
theorem D_keeps_main_v3 : after opsD V (Proc.devRef .tc main_v3) = V (Proc.devRef .tc main_v3) := by
  unfold opsD; after_results_simp
theorem D_keeps_main_v6 : after opsD V (Proc.devRef .tc main_v6) = V (Proc.devRef .tc main_v6) := by
  unfold opsD; after_results_simp
theorem D_keeps_main_arg5 : after opsD V (Proc.devRef .tc main_arg5) = V (Proc.devRef .tc main_arg5) := by
  unfold opsD; after_results_simp
theorem E_keeps_main_v3 : after opsE V (Proc.devRef .tc main_v3) = V (Proc.devRef .tc main_v3) := by
  unfold opsE; after_results_simp
theorem E_keeps_main_v6 : after opsE V (Proc.devRef .tc main_v6) = V (Proc.devRef .tc main_v6) := by
  unfold opsE; after_results_simp
theorem E_keeps_main_v48 : after opsE V (Proc.devRef .tc main_v48) = V (Proc.devRef .tc main_v48) := by
  unfold opsE; after_results_simp
theorem E_keeps_main_arg5 : after opsE V (Proc.devRef .tc main_arg5) = V (Proc.devRef .tc main_arg5) := by
  unfold opsE; after_results_simp
theorem F_keeps_main_arg5 : after opsF V (Proc.devRef .tc main_arg5) = V (Proc.devRef .tc main_arg5) := by
  unfold opsF; after_results_simp

/-! ## What each stretch computes -/

theorem A_sources : after opsA V (Proc.devRef .tc main_v3) = sources (V (Proc.devRef .tc main_arg1)) := by
  unfold opsA; after_results; rfl
theorem A_targets : after opsA V (Proc.devRef .tc main_v6) = targets (V (Proc.devRef .tc main_arg1)) := by
  unfold opsA; after_results; rfl
theorem B_product : after opsB V (Proc.devRef .tc main_v7) = Host.dotGeneral dot_S100000x512_S512x128_S100000x128_1_0_0_1_n_n none (V (Proc.devRef .tc main_arg0)) (V (Proc.devRef .tc main_arg2)) := by
  unfold opsB; after_results_simp <;> rfl
theorem B_invRoot : after opsB V (Proc.devRef .tc main_v15) = invRoot (V (Proc.devRef .tc main_v6)) := by
  unfold opsB; after_results_simp <;> rfl
theorem C_aggregate : after opsC V (Proc.devRef .tc main_v43)
    = aggregate128 (V (Proc.devRef .tc main_v3)) (V (Proc.devRef .tc main_v6)) (edgeWeight (V (Proc.devRef .tc main_v3)) (V (Proc.devRef .tc main_v6)) (V (Proc.devRef .tc main_v15))) (V (Proc.devRef .tc main_v7)) := by
  unfold opsC; after_results_simp <;> rfl
theorem D_product : after opsD V (Proc.devRef .tc main_v48)
    = Host.dotGeneral dot_S100000x128_S128x64_S100000x64_1_0_0_1_n_n none (hidden (V (Proc.devRef .tc main_v43)) (V (Proc.devRef .tc main_arg3))) (V (Proc.devRef .tc main_arg4)) := by
  unfold opsD; after_results_simp <;> rfl
theorem E_invRoot : after opsE V (Proc.devRef .tc main_v56) = invRoot (V (Proc.devRef .tc main_v6)) := by
  unfold opsE; after_results_simp <;> rfl
theorem F_aggregate : after opsF V (Proc.devRef .tc main_v84)
    = aggregate64 (V (Proc.devRef .tc main_v3)) (V (Proc.devRef .tc main_v6)) (edgeWeight (V (Proc.devRef .tc main_v3)) (V (Proc.devRef .tc main_v6)) (V (Proc.devRef .tc main_v56))) (V (Proc.devRef .tc main_v48)) := by
  unfold opsF; after_results_simp <;> rfl
theorem G_output : after opsG V (Proc.devRef .tc main_v87) = output (V (Proc.devRef .tc main_v84)) (V (Proc.devRef .tc main_arg5)) := by
  unfold opsG; after_results_simp <;> rfl

/-! ## The seven composed -/

/-- From the launch contents the result buffer ends holding the network of the six arguments. -/
theorem value (m : (ℓ : Loc nD τ sig) → Buf (Elt F) ℓ) (c : Dev nD) :
    after (ops (F := F)) (launchContents m c) (Proc.devRef .tc main_v87)
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [ops_split]
  simp only [StableHlo.after_append]
  rw [G_output, F_aggregate, F_keeps_main_arg5]
  rw [E_invRoot, E_keeps_main_v3, E_keeps_main_v6, E_keeps_main_v48, E_keeps_main_arg5]
  rw [D_product, D_keeps_main_v3, D_keeps_main_v6, D_keeps_main_arg5]
  rw [C_aggregate, C_keeps_main_v3, C_keeps_main_v6, C_keeps_main_arg3, C_keeps_main_arg4, C_keeps_main_arg5]
  rw [B_product, B_invRoot, B_keeps_main_v3, B_keeps_main_v6, B_keeps_main_arg3, B_keeps_main_arg4, B_keeps_main_arg5]
  rw [A_sources, A_targets, A_keeps_main_arg0, A_keeps_main_arg2, A_keeps_main_arg3, A_keeps_main_arg4, A_keeps_main_arg5]
  rfl

end Cert.ReferenceIdeal.Stretches

end
-- ==== Proof.lean ====
/-
  The certificate's claims for the two-layer graph convolution.

  The kernel program computes the network in four row-blocked regions (x · W₁; bias and clamp; hidden · W₂; bias) with the
  gather-scale-scatter aggregation along the edges on the host between them; the reference computes the same network
  entirely on the host. At the ideal instance a change of float format is the identity and a blocked matrix product is
  the plain sum over the contracted axis, so both programs end with the SAME function of the six arguments in the
  result buffer — the network of Proof/Spec.lean (the kernel program: Proof/KernelValue.lean over the run of
  Proof/WholeRun.lean; the reference: Proof/ReferenceValue.lean over Proof/ReferenceRun.lean). No algebraic law is
  used beyond reading both products as the same sums, so the finiteness of the inputs is never opened.
  The frames of the kernel program at both instances are generated whole; the reference's is its run with the result
  dropped. The ideal pass's ledger is empty, so Defs.lean states the preservation claim as `True`.
-/
import proofs.«147030_j55920474193965_1_alg».proof.Defs
import proofs.«147030_j55920474193965_1_alg».proof.Proof.Gen.Kernel
import proofs.«147030_j55920474193965_1_alg».proof.Proof.Gen.Kernel.Frame
import proofs.«147030_j55920474193965_1_alg».proof.Proof.Gen.KernelIdeal
import proofs.«147030_j55920474193965_1_alg».proof.Proof.Gen.KernelIdeal.Frame
import proofs.«147030_j55920474193965_1_alg».proof.Proof.Gen.ReferenceIdeal
import proofs.«147030_j55920474193965_1_alg».proof.Proof.Gen.Pre_finite_inputs
import proofs.«147030_j55920474193965_1_alg».proof.Proof.WholeRun
import proofs.«147030_j55920474193965_1_alg».proof.Proof.KernelValue
import proofs.«147030_j55920474193965_1_alg».proof.Proof.ReferenceRun
import proofs.«147030_j55920474193965_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the network of the arguments in the result buffer; the arguments agree. -/
theorem algebraic : Cert.algebraic_KernelIdeal_ReferenceIdeal := by
  intro m ρ m' ρ' _ hagree
  refine ⟨fun c => Cert.GraphConv.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.value m ρ c), (h c).2⟩)
      (Cert.KernelIdeal.WholeRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Stretches.value m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
